-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S64x2048 : Shape := ⟨2, ![64, 2048]⟩
abbrev S64 : Shape := ⟨1, ![64]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16384x2048 .f32) (main_arg1 : FVec F S64x2048 .f32) (main_arg2 : FVec F S64 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16384x2048 : Shape := ⟨2, ![16384, 2048]⟩
abbrev S64x2048 : Shape := ⟨2, ![64, 2048]⟩
abbrev S64 : Shape := ⟨1, ![64]⟩
abbrev S1x64 : Shape := ⟨2, ![1, 64]⟩
abbrev S16384x64 : Shape := ⟨2, ![16384, 64]⟩
abbrev S1024x2048 : Shape := ⟨2, ![1024, 2048]⟩
abbrev S1024x64 : Shape := ⟨2, ![1024, 64]⟩
abbrev S1024 : Shape := ⟨1, ![1024]⟩
abbrev S1024x1 : Shape := ⟨2, ![1024, 1]⟩

abbrev nBuf : Space → Nat
  | .hbm => 5
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64, .f32⟩
  | .hbm, ⟨3, _⟩ => ⟨S1x64, .f32⟩
  | .hbm, ⟨4, _⟩ => ⟨S16384x64, .f32⟩
  | .local _ .vmem, ⟨0, _⟩ => ⟨S1024x2048, .f32⟩
  | .local _ .vmem, ⟨1, _⟩ => ⟨S1024x2048, .f32⟩
  | .local _ .vmem, ⟨2, _⟩ => ⟨S64x2048, .f32⟩
  | .local _ .vmem, ⟨3, _⟩ => ⟨S1x64, .f32⟩
  | .local _ .vmem, ⟨4, _⟩ => ⟨S1024x64, .f32⟩
  | .local _ .vmem, ⟨5, _⟩ => ⟨S1024x64, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64_S1x64 : S64.ShapeCasts S1x64
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S64x2048_S64x2048_0_0 : ∀ a, (![0, 0] : Fin 2 → Nat) a + S64x2048.size a ≤ S64x2048.size a
  h_S64x2048 : 0 < S64x2048.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  reduces_S1024x64_S1024 : S1024x64.Reduces [1] S1024
  shapeCasts_S1024_S1024x1 : S1024.ShapeCasts S1024x1
  broadcasts_S1024x1_S1024x64 : S1024x1.Broadcasts S1024x64
  inb_S1024x64_S1024x64_0_0 : ∀ a, (![0, 0] : Fin 2 → Nat) a + S1024x64.size a ≤ S1024x64.size a
  h_S1024x64 : 0 < S1024x64.numel
  dot_S1024x2048_S64x2048_S1024x64_1_1_0_0_n_n_wf : DotDims.WF S1024x2048 S64x2048 S1024x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .f32 = 32 ∨ (Rect.block (s := S64x2048) S64x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S16384x64.size a
  hwx0_3 : ∀ i : grid0.Coords, EltTy.bits .f32 = 32 ∨ (Rect.block (s := S16384x64) S1024x64.size (cc0_transform_3 i) (hinb0_3 i)).WholeWords (EltTy.packing .f32)

variable [Facts₀]

def dot_S1024x2048_S64x2048_S1024x64_1_1_0_0_n_n : DotDims S1024x2048 S64x2048 S1024x64 where
  lhsContracting := [1]
  rhsContracting := [1]
  lhsNonContracting := [0]
  rhsNonContracting := [0]
  lhsBatch := []
  rhsBatch := []
  wf := dot_S1024x2048_S64x2048_S1024x64_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S64x2048 : Shape := ⟨2, ![64, 2048]⟩
abbrev S64 : Shape := ⟨1, ![64]⟩
abbrev S2048x64 : Shape := ⟨2, ![2048, 64]⟩
abbrev S16384x64 : Shape := ⟨2, ![16384, 64]⟩
abbrev S1x64 : Shape := ⟨2, ![1, 64]⟩
abbrev S_ : Shape := ⟨0, ![]⟩
abbrev S16384 : Shape := ⟨1, ![16384]⟩
abbrev S16384x1 : Shape := ⟨2, ![16384, 1]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64, .f32⟩
  | .hbm, ⟨3, _⟩ => ⟨S2048x64, .f32⟩
  | .hbm, ⟨4, _⟩ => ⟨S16384x64, .f32⟩
  | .hbm, ⟨5, _⟩ => ⟨S1x64, .f32⟩
  | .hbm, ⟨6, _⟩ => ⟨S16384x64, .f32⟩
  | .hbm, ⟨7, _⟩ => ⟨S16384x64, .f32⟩
  | .hbm, ⟨8, _⟩ => ⟨S_, .f32⟩
  | .hbm, ⟨9, _⟩ => ⟨S16384x64, .f32⟩
  | .hbm, ⟨10, _⟩ => ⟨S16384x64, .f32⟩
  | .hbm, ⟨11, _⟩ => ⟨S_, .f32⟩
  | .hbm, ⟨12, _⟩ => ⟨S16384, .f32⟩
  | .hbm, ⟨13, _⟩ => ⟨S_, .f32⟩
  | .hbm, ⟨14, _⟩ => ⟨S16384, .f32⟩
  | .hbm, ⟨15, _⟩ => ⟨S16384, .f32⟩
  | .hbm, ⟨16, _⟩ => ⟨S16384x1, .f32⟩
  | .hbm, ⟨17, _⟩ => ⟨S16384x64, .f32⟩
  | .hbm, ⟨18, _⟩ => ⟨S16384x64, .f32⟩
  | .hbm, ⟨19, _⟩ => ⟨S16384x64, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S16384x64, .f32⟩
  | .hbm, ⟨24, _⟩ => ⟨S16384x64, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  transposes_S64x2048_S2048x64_1_0 : S64x2048.Transposes [1, 0] S2048x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  reducesTo_S16384x64_S16384_d1 : S16384x64.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  dot_S16384x2048_S2048x64_S16384x64_1_0_0_1_n_n_wf : DotDims.WF S16384x2048 S2048x64 S16384x64 [1] [0] [0] [1] [] []

variable [Facts₀]

def dot_S16384x2048_S2048x64_S16384x64_1_0_0_1_n_n : DotDims S16384x2048 S2048x64 S16384x64 where
  lhsContracting := [1]
  rhsContracting := [0]
  lhsNonContracting := [0]
  rhsNonContracting := [1]
  lhsBatch := []
  rhsBatch := []
  wf := dot_S16384x2048_S2048x64_S16384x64_1_0_0_1_n_n_wf

class Facts : Prop extends Facts₀ where

variable [Facts]
-- ==== Proof.LibRowReduce.lean ====
/-
  Reading a two-dimensional value row by row on the extended reals.

  A row statistic kept as a column — a reduction of an [a, b] value over its last axis, viewed as [a, 1] and
  broadcast back to [a, b] — reads, at (p, j), the statistic of row p.  The maximum of a row is the fold of
  `max` over its entries from the starting value; the sum of a row is the finite sum of its entries.  The same
  two readings hold for a host reduction of an [a, b, c] array over its last axis, row (p, q).
-/
import Idealize.ShloMosaic.PureOps.Ideal.Laws
import Idealize.ShloMosaic.Lib.Pipeline.Value
import Idealize.ShloMosaic.Lib.ValueIdx

noncomputable section

namespace RowReduce

open Idealize.ShloMosaic Idealize.ShloMosaic.ValueIdx

/-- The maximum of a finite family of extended reals, folded from a starting value. -/
def foldMax {n : Nat} (init : EReal) (f : Fin n → EReal) : EReal :=
  (Finset.univ : Finset (Fin n)).fold max init f

/-- The f32 word of −∞ is the bottom of the extended reals, so it is neutral for `max`. -/
theorem max_negInf (y : EReal) : max (Ideal.ofBits .f32 0xFF800000#32) y = y := by
  simp [Ideal.ofBits, Ideal.ieee]

section Layout
variable {α : Type}

/-- A vector of `a` entries viewed as a column [a, 1] reads entry `p` at (p, 0). -/
theorem shapeCast_column_apply {a : Nat} (z : (⟨1, ![a]⟩ : Shape).Idx → α)
    (h : (⟨1, ![a]⟩ : Shape).ShapeCasts ⟨2, ![a, 1]⟩) (p : Fin a) (q : Fin 1) :
    shapeCast ⟨2, ![a, 1]⟩ z h (ix2 p q) = z (ix1 p) := by
  refine shapeCast_apply z h (ix2 p q) (ix1 p) ?_
  rw [Shape.rowMajor_val_one, Shape.rowMajor_val_two]
  show p.val = p.val * 1 + q.val
  have := q.isLt
  omega

/-- A column [a, 1] broadcast along its rows to [a, b] reads (p, 0) at (p, j). -/
theorem broadcastTo_column_apply {a b : Nat} (z : (⟨2, ![a, 1]⟩ : Shape).Idx → α)
    (h : (⟨2, ![a, 1]⟩ : Shape).Broadcasts ⟨2, ![a, b]⟩) (p : Fin a) (j : Fin b) :
    broadcastTo ⟨2, ![a, b]⟩ z h (ix2 p j) = z (ix2 p (0 : Fin 1)) := by
  refine broadcastTo_apply z h (ix2 p j) (ix2 p (0 : Fin 1)) fun c => ?_
  match c with
  | ⟨0, _⟩ =>
    show p.val = if a = 1 then 0 else p.val
    by_cases h1 : a = 1
    · rw [if_pos h1]; have := p.isLt; omega
    · rw [if_neg h1]
  | ⟨1, _⟩ =>
    show (0 : Nat) = if (1 : Nat) = 1 then 0 else j.val
    rw [if_pos rfl]

/-- So a row statistic `z` kept as a column and broadcast back reads `z p` at (p, j). -/
theorem column_broadcast_apply {a b : Nat} (z : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (j : Fin b) :
    broadcastTo ⟨2, ![a, b]⟩ (shapeCast ⟨2, ![a, 1]⟩ z h1) h2 (ix2 p j) = z (ix1 p) :=
  (broadcastTo_column_apply _ h2 p j).trans (shapeCast_column_apply z h1 p 0)

end Layout

/-! ## A reduction over the last axis of a two-dimensional value -/

/-- Row index `p` with coordinate `k` put back on the last axis is (p, k). -/
theorem lift_last2 {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The maximum over the last axis, at row `p`: the fold of `max` over the row's entries. -/
theorem multiReduction_max_row {a b : Nat} {φ : FTy} (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction (F := Ideal) .maximumf [1] ⟨1, ![a]⟩ x acc h hφ hacc (ix1 p)
      = foldMax (Ideal.ofBits φ acc) fun k : Fin b => x (ix2 p k) := by
  refine (Ideal.multiReduction_maximumf_single x acc h hφ hacc (ix1 p)).trans ?_
  have hf : (x ∘ h.lift (ix1 p)) = fun k : Fin b => x (ix2 p k) := funext fun k => congrArg x (lift_last2 h p k)
  unfold foldMax
  exact congrArg (fun f => Finset.fold max (Ideal.ofBits φ acc) f (Finset.univ : Finset (Fin b))) hf

/-- The sum over the last axis, at row `p`: the sum of the row's entries. -/
theorem multiReduction_add_row {a b : Nat} {φ : FTy} (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (p : Fin a) :
    multiReduction (F := Ideal) .add [1] ⟨1, ![a]⟩ x acc h hφ hacc (ix1 p) = ∑ k : Fin b, x (ix2 p k) := by
  refine (Ideal.multiReduction_add_single x acc h hφ hacc (ix1 p)).trans ?_
  exact Finset.sum_congr rfl fun k _ => congrArg x (lift_last2 h p k)

/-! ## A host reduction over the last axis of a three-dimensional array -/

/-- Row index (p, q) with coordinate `k` put back on the last axis is (p, q, k). -/
theorem lift_last3 {a b c : Nat} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- The host's maximum over the last axis, at row (p, q): the fold of `max` over the row's entries from the
    initial value. -/
theorem hostReduce_max_row {a b c : Nat} {φ : FTy} {u : Shape} (x : FVec Ideal ⟨3, ![a, b, c]⟩ φ) (init : u.Idx → Ideal φ)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < u.numel) (p : Fin a) (q : Fin b) :
    Host.reduce FloatOps.maximumf x init h' hu (ix2 p q)
      = foldMax (init (Shape.Idx.first hu)) fun k : Fin c => x (ix3 p q k) := by
  refine (Host.reduce_eq_fold_single FloatOps.maximumf x init h' h hu (ix2 p q)).trans ?_
  have hf : (x ∘ h.lift (ix2 p q)) = fun k : Fin c => x (ix3 p q k) := funext fun k => congrArg x (lift_last3 h p q k)
  unfold foldMax
  exact congrArg (fun f => Finset.fold max (init (Shape.Idx.first hu)) f (Finset.univ : Finset (Fin c))) hf

end RowReduce

end
-- ==== Proof.LibERealSums.lean ====
/-
  General facts about finite sums of extended reals.

  An extended real is FINITE when it is neither `⊥` nor `⊤`, that is, when it is a real number. The finite extended
  reals are closed under `+`, `-`, `*` and finite sums, and on them `x - x = 0` (which fails at the infinities:
  `⊤ - ⊤ = ⊥`). The hyperbolic tangent of the extended reals (`tanh ⊥ = -1`, `tanh ⊤ = 1`) is finite everywhere.

  A product of two matrices computed as  a·b + a·(b - b) + (a - a)·b  is therefore  a·b  on finite entries
  (`three_pass`); a running total that starts from its first term and adds one term per step is the sum of the
  terms (`acc_eq_sum`); a sum over `Fin (a * b)` is the sum over `a` blocks of `b` consecutive indices
  (`sum_blocks…`); and a sum over `Fin 128` is the sum over its lower and upper halves (`sum_halves`).
-/
import Idealize.ShloMosaic.PureOps.Ideal
import Mathlib.Algebra.BigOperators.Fin
import Mathlib.Logic.Equiv.Fin.Basic

noncomputable section

open scoped BigOperators

namespace Cert.LibERealSums

open Idealize.ShloMosaic

/-! ## Finite extended reals -/

/-- An extended real is finite when it is neither infinity. -/
def IsFin (x : EReal) : Prop := x ≠ ⊥ ∧ x ≠ ⊤

/-- A real number, seen as an extended real, is finite. -/
theorem isFin_coe (r : ℝ) : IsFin (r : EReal) := ⟨EReal.coe_ne_bot r, EReal.coe_ne_top r⟩

/-- A finite extended real is a real number. -/
theorem IsFin.exists_coe {x : EReal} (h : IsFin x) : ∃ r : ℝ, x = (r : EReal) := by
  lift x to ℝ using ⟨h.2, h.1⟩
  exact ⟨x, rfl⟩

/-- Zero is finite. -/
theorem isFin_zero : IsFin 0 := by
  rw [← EReal.coe_zero]; exact isFin_coe 0

/-- One is finite. -/
theorem isFin_one : IsFin 1 := by
  rw [← EReal.coe_one]; exact isFin_coe 1

/-- The sum of two finite extended reals is finite. -/
theorem IsFin.add {x y : EReal} (hx : IsFin x) (hy : IsFin y) : IsFin (x + y) := by
  obtain ⟨r, rfl⟩ := hx.exists_coe
  obtain ⟨s, rfl⟩ := hy.exists_coe
  rw [← EReal.coe_add]; exact isFin_coe _

/-- The product of two finite extended reals is finite. -/
theorem IsFin.mul {x y : EReal} (hx : IsFin x) (hy : IsFin y) : IsFin (x * y) := by
  obtain ⟨r, rfl⟩ := hx.exists_coe
  obtain ⟨s, rfl⟩ := hy.exists_coe
  rw [← EReal.coe_mul]; exact isFin_coe _

/-- The negation of a finite extended real is finite. -/
theorem IsFin.neg {x : EReal} (hx : IsFin x) : IsFin (-x) := by
  obtain ⟨r, rfl⟩ := hx.exists_coe
  rw [← EReal.coe_neg]; exact isFin_coe _

/-- The difference of two finite extended reals is finite. -/
theorem IsFin.sub {x y : EReal} (hx : IsFin x) (hy : IsFin y) : IsFin (x - y) := by
  obtain ⟨r, rfl⟩ := hx.exists_coe
  obtain ⟨s, rfl⟩ := hy.exists_coe
  rw [← EReal.coe_sub]; exact isFin_coe _

/-- A finite extended real minus itself is zero. (At an infinity it is not: `⊤ - ⊤ = ⊥`.) -/
theorem sub_self_of_isFin {x : EReal} (hx : IsFin x) : x - x = 0 := by
  obtain ⟨r, rfl⟩ := hx.exists_coe
  rw [← EReal.coe_sub, sub_self, EReal.coe_zero]

/-- A sum of finite extended reals over a finite set is finite. -/
theorem isFin_sum {ι : Type*} (s : Finset ι) (f : ι → EReal) (h : ∀ i ∈ s, IsFin (f i)) : IsFin (∑ i ∈ s, f i) :=
  Finset.sum_induction f IsFin (fun _ _ => IsFin.add) isFin_zero h

/-- A sum of finite extended reals over a finite type is finite. -/
theorem isFin_sum_univ {ι : Type*} [Fintype ι] (f : ι → EReal) (h : ∀ i, IsFin (f i)) : IsFin (∑ i, f i) :=
  isFin_sum Finset.univ f fun i _ => h i

/-- A finite sum of products of finite extended reals is finite. -/
theorem isFin_sum_mul {ι : Type*} [Fintype ι] (a b : ι → EReal) (ha : ∀ i, IsFin (a i)) (hb : ∀ i, IsFin (b i)) :
    IsFin (∑ i, a i * b i) :=
  isFin_sum_univ _ fun i => (ha i).mul (hb i)

/-- The hyperbolic tangent of an extended real is finite, at the infinities too (`tanh ⊥ = -1`, `tanh ⊤ = 1`). -/
theorem isFin_tanh (x : EReal) : IsFin (Ideal.tanh x) := by
  induction x using EReal.rec with
  | bot => rw [Ideal.tanh_bot]; exact isFin_one.neg
  | top => rw [Ideal.tanh_top]; exact isFin_one
  | coe r => rw [Ideal.tanh_coe]; exact isFin_coe _

/-! ## A product in three passes -/

/-- A sum of products whose second factors are all zero is zero. -/
theorem sum_mul_zero {ι : Type*} (s : Finset ι) (a : ι → EReal) : ∑ l ∈ s, a l * 0 = 0 :=
  Finset.sum_eq_zero fun _ _ => mul_zero _

/-- A sum of products whose first factors are all zero is zero. -/
theorem sum_zero_mul {ι : Type*} (s : Finset ι) (b : ι → EReal) : ∑ l ∈ s, 0 * b l = 0 :=
  Finset.sum_eq_zero fun _ _ => zero_mul _

/-- With finite second factors, `∑ a · (b - b) = 0` (whatever the first factors are: `a · 0 = 0`). -/
theorem sum_mul_sub_self {ι : Type*} (s : Finset ι) (a b : ι → EReal) (hb : ∀ l, IsFin (b l)) :
    ∑ l ∈ s, a l * (b l - b l) = 0 :=
  Finset.sum_eq_zero fun l _ => by rw [sub_self_of_isFin (hb l), mul_zero]

/-- With finite first factors, `∑ (a - a) · b = 0` (whatever the second factors are: `0 · b = 0`). -/
theorem sum_sub_self_mul {ι : Type*} (s : Finset ι) (a b : ι → EReal) (ha : ∀ l, IsFin (a l)) :
    ∑ l ∈ s, (a l - a l) * b l = 0 :=
  Finset.sum_eq_zero fun l _ => by rw [sub_self_of_isFin (ha l), zero_mul]

/-- THE THREE-PASS PRODUCT: for finite factors,  `∑ a·b + ∑ a·(b - b) + ∑ (a - a)·b = ∑ a·b`. -/
theorem three_pass {ι : Type*} [Fintype ι] (a b : ι → EReal) (ha : ∀ l, IsFin (a l)) (hb : ∀ l, IsFin (b l)) :
    ((∑ l, a l * b l) + (∑ l, a l * (b l - b l))) + (∑ l, (a l - a l) * b l) = ∑ l, a l * b l := by
  rw [sum_mul_sub_self _ a b hb, sum_sub_self_mul _ a b ha, add_zero, add_zero]

/-- The three-pass product with the two correction sums already written over zero factors. -/
theorem three_pass_zero {ι : Type*} [Fintype ι] (a b : ι → EReal) :
    ((∑ l, a l * b l) + (∑ l, a l * 0)) + (∑ l, 0 * b l) = ∑ l, a l * b l := by
  rw [sum_mul_zero, sum_zero_mul, add_zero, add_zero]

/-- The three-pass product with each pass added to a leading zero (a product accumulated into a zero total). -/
theorem three_pass_zero_add {ι : Type*} [Fintype ι] (a b : ι → EReal) (ha : ∀ l, IsFin (a l)) (hb : ∀ l, IsFin (b l)) :
    ((0 + ∑ l, a l * b l) + (0 + ∑ l, a l * (b l - b l))) + (0 + ∑ l, (a l - a l) * b l) = ∑ l, a l * b l := by
  rw [zero_add, zero_add, zero_add, three_pass a b ha hb]

/-- TWO THREE-PASS PRODUCTS ADDED IN ONE CHAIN: for finite factors,
    `((((∑ a·b + ∑ a·(b - b)) + ∑ (a - a)·b) + ∑ c·d) + ∑ c·(d - d)) + ∑ (c - c)·d = ∑ a·b + ∑ c·d`. -/
theorem six_pass {ι κ : Type*} [Fintype ι] [Fintype κ] (a b : ι → EReal) (c d : κ → EReal)
    (ha : ∀ l, IsFin (a l)) (hb : ∀ l, IsFin (b l)) (hc : ∀ l, IsFin (c l)) (hd : ∀ l, IsFin (d l)) :
    (((((∑ l, a l * b l) + (∑ l, a l * (b l - b l))) + (∑ l, (a l - a l) * b l)) + (∑ l, c l * d l))
        + (∑ l, c l * (d l - d l))) + (∑ l, (c l - c l) * d l)
      = (∑ l, a l * b l) + (∑ l, c l * d l) := by
  rw [sum_mul_sub_self _ a b hb, sum_sub_self_mul _ a b ha, sum_mul_sub_self _ c d hd, sum_sub_self_mul _ c d hc,
    add_zero, add_zero, add_zero, add_zero]

/-! ## A running total is the sum of its terms -/

/-- A total that starts at `0 + t 0` and adds `t (k+1)` at step `k + 1` is, after step `n`, the sum of
    `t 0, …, t n`. -/
theorem acc_eq_sum (t acc : ℕ → EReal) (h0 : acc 0 = 0 + t 0) (hs : ∀ k, acc (k + 1) = acc k + t (k + 1)) (n : ℕ) :
    acc n = ∑ s ∈ Finset.range (n + 1), t s := by
  induction n with
  | zero => rw [h0, zero_add, Finset.sum_range_one]
  | succ k ih => rw [hs k, ih, Finset.sum_range_succ _ (k + 1)]

/-- The same for a total that starts at `t 0`. -/
theorem acc_eq_sum' (t acc : ℕ → EReal) (h0 : acc 0 = t 0) (hs : ∀ k, acc (k + 1) = acc k + t (k + 1)) (n : ℕ) :
    acc n = ∑ s ∈ Finset.range (n + 1), t s :=
  acc_eq_sum t acc (by rw [h0, zero_add]) hs n

/-- The same when the step rule is known only up to a last step `N`: the total after step `n ≤ N`. -/
theorem acc_eq_sum_le (t acc : ℕ → EReal) (N : ℕ) (h0 : acc 0 = 0 + t 0)
    (hs : ∀ k, k + 1 ≤ N → acc (k + 1) = acc k + t (k + 1)) (n : ℕ) (hn : n ≤ N) :
    acc n = ∑ s ∈ Finset.range (n + 1), t s := by
  induction n with
  | zero => rw [h0, zero_add, Finset.sum_range_one]
  | succ k ih => rw [hs k hn, ih (by omega), Finset.sum_range_succ _ (k + 1)]

/-- … and for a total that starts at `t 0`. -/
theorem acc_eq_sum_le' (t acc : ℕ → EReal) (N : ℕ) (h0 : acc 0 = t 0)
    (hs : ∀ k, k + 1 ≤ N → acc (k + 1) = acc k + t (k + 1)) (n : ℕ) (hn : n ≤ N) :
    acc n = ∑ s ∈ Finset.range (n + 1), t s :=
  acc_eq_sum_le t acc N (by rw [h0, zero_add]) hs n hn

/-- A running total of finite terms is finite. -/
theorem isFin_acc (t acc : ℕ → EReal) (h0 : acc 0 = 0 + t 0) (hs : ∀ k, acc (k + 1) = acc k + t (k + 1))
    (ht : ∀ s, IsFin (t s)) (n : ℕ) : IsFin (acc n) := by
  rw [acc_eq_sum t acc h0 hs n]; exact isFin_sum _ _ fun s _ => ht s

/-! ## A sum in blocks -/

/-- The index `s * b + l` of entry `l` of block `s` is below `a * b`. -/
theorem block_lt {a b : ℕ} (s : Fin a) (l : Fin b) : s.val * b + l.val < a * b := by
  have hs := s.isLt
  have hl := l.isLt
  calc s.val * b + l.val < s.val * b + b := Nat.add_lt_add_left hl _
    _ = (s.val + 1) * b := (Nat.succ_mul _ _).symm
    _ ≤ a * b := Nat.mul_le_mul_right _ hs

/-- A sum over `Fin (a * b)` is the sum over `a` blocks of `b` consecutive indices: block `s`, entry `l` is
    index `s * b + l`. -/
theorem sum_blocks_fin {M : Type*} [AddCommMonoid M] {a b : ℕ} (f : Fin (a * b) → M) :
    ∑ s : Fin a, ∑ l : Fin b, f ⟨s.val * b + l.val, block_lt s l⟩ = ∑ n, f n := by
  rw [← Equiv.sum_comp (finProdFinEquiv (m := a) (n := b)) f, Fintype.sum_prod_type]
  refine Finset.sum_congr rfl fun s _ => Finset.sum_congr rfl fun l _ => congrArg f (Fin.ext ?_)
  show s.val * b + l.val = l.val + b * s.val
  rw [Nat.mul_comm, Nat.add_comm]

/-- The same with the blocks counted by a natural number below `a`, for block terms `F s l` known to be `f` at
    index `s * b + l` whenever `s < a`. -/
theorem sum_blocks_range {M : Type*} [AddCommMonoid M] {a b : ℕ} (f : Fin (a * b) → M) (F : ℕ → Fin b → M)
    (hF : ∀ (s : ℕ) (hs : s < a) (l : Fin b), F s l = f ⟨s * b + l.val, block_lt ⟨s, hs⟩ l⟩) :
    ∑ s ∈ Finset.range a, ∑ l : Fin b, F s l = ∑ n, f n := by
  rw [← sum_blocks_fin f, ← Fin.sum_univ_eq_sum_range (fun s => ∑ l : Fin b, F s l) a]
  exact Finset.sum_congr rfl fun s _ => Finset.sum_congr rfl fun l _ => hF s.val s.isLt l

/-- 16 blocks of 1024: a sum over `Fin 16384` from its blocks, counted by `Fin 16`. -/
theorem sum_blocks_16_1024_fin {M : Type*} [AddCommMonoid M] (f : Fin 16384 → M) :
    ∑ s : Fin 16, ∑ l : Fin 1024, f ⟨s.val * 1024 + l.val, by have := s.isLt; have := l.isLt; omega⟩ = ∑ n, f n :=
  sum_blocks_fin (a := 16) (b := 1024) f

/-- 16 blocks of 1024: a sum over `Fin 16384` from block terms `F s l` known to be `f` at index `s * 1024 + l`
    whenever `s < 16`, the blocks counted by a natural number. -/
theorem sum_blocks_16_1024 {M : Type*} [AddCommMonoid M] (f : Fin 16384 → M) (F : ℕ → Fin 1024 → M)
    (hF : ∀ (s : ℕ) (hs : s < 16) (l : Fin 1024),
      F s l = f ⟨s * 1024 + l.val, by have := l.isLt; omega⟩) :
    ∑ s ∈ Finset.range 16, ∑ l : Fin 1024, F s l = ∑ n, f n :=
  sum_blocks_range (a := 16) (b := 1024) f F hF

/-- 16 blocks of 1024 with the index guarded by its bound: the form with no proof argument. -/
theorem sum_blocks_16_1024_dite {M : Type*} [AddCommMonoid M] (f : Fin 16384 → M) :
    ∑ s ∈ Finset.range 16, ∑ l : Fin 1024,
        (if h : s * 1024 + l.val < 16384 then f ⟨s * 1024 + l.val, h⟩ else 0) = ∑ n, f n :=
  sum_blocks_16_1024 f _ fun s hs l => dif_pos (by have := l.isLt; omega)

/-! ## A sum in halves -/

/-- A sum over `Fin 128` is the sum over indices `k < 64` plus the sum over indices `64 + k`, `k < 64`. -/
theorem sum_halves {M : Type*} [AddCommMonoid M] (f : Fin 128 → M) :
    ∑ k : Fin 128, f k
      = (∑ k : Fin 64, f ⟨k.val, by have := k.isLt; omega⟩) + (∑ k : Fin 64, f ⟨64 + k.val, by have := k.isLt; omega⟩) :=
  Fin.sum_univ_add (a := 64) (b := 64) f

/-! ## A finite sum times a constant -/

/-- For finite terms and a finite factor, `(∑ t) · w = ∑ t · w`. -/
theorem sum_mul_of_isFin {ι : Type*} (s : Finset ι) (t : ι → EReal) (w : EReal) (ht : ∀ l, IsFin (t l)) (hw : IsFin w) :
    (∑ l ∈ s, t l) * w = ∑ l ∈ s, t l * w := by
  obtain ⟨r, rfl⟩ := hw.exists_coe
  choose u hu using fun l => (ht l).exists_coe
  have hcoe : ∀ (g : ι → ℝ), (∑ l ∈ s, ((g l : ℝ) : EReal)) = ((∑ l ∈ s, g l : ℝ) : EReal) := by
    intro g
    classical
    induction s using Finset.induction_on with
    | empty => simp
    | insert i s hi ih => rw [Finset.sum_insert hi, Finset.sum_insert hi, EReal.coe_add, ih]
  simp only [hu, ← EReal.coe_mul]
  rw [hcoe, hcoe, ← EReal.coe_mul, Finset.sum_mul]

end Cert.LibERealSums

end
-- ==== Proof.Softmax.lean ====
/-
  The tempered softmax of one row of logits, on the extended reals, written two ways.

  From a row of scaled logits `z` both ways take the row's maximum `m` (a fold of `max` that starts from −∞),
  the weights `e k = exp (z k − m)` and their sum `s`.  One way multiplies the weight by the reciprocal `1 / s`;
  the other divides the weight by `s` (its sum started from the word of zero).  The two agree as soon as `s ≠ 0`:
  dividing by a nonzero extended real IS multiplying by its inverse.  At `s = 0` they would differ (`0 · (1/0) = 0`
  against `0 / 0 = ⊥`), and `s = 0` does happen at infinite logits (all of them −∞: every weight is `exp ⊥ = 0`), so
  finiteness of the logits is used, and only here: for finite `z` the maximum is below `⊤`, so no exponent is `⊥`,
  every weight is positive and so is their sum.

  The scaling itself, half the logit against the logit divided by two, agrees on every extended real.

  A logit is a row of `x` against a row of `w` plus a bias; with finite entries it is finite.
-/
import Idealize.ShloMosaic.PureOps.Ideal.Laws
import Idealize.ShloMosaic.Lib.ValueIdx
import proofs.«148821_g39702677684789_cont_8to1_b_1864_3_alg».proof.Proof.LibRowReduce
import proofs.«148821_g39702677684789_cont_8to1_b_1864_3_alg».proof.Proof.LibERealSums

noncomputable section

open scoped BigOperators

namespace TemperedSoftmax

open Idealize.ShloMosaic Idealize.ShloMosaic.ValueIdx RowReduce Cert.LibERealSums

/-! ## The four float words the two programs spell -/

/-- The word of −∞ is the bottom of the extended reals. -/
theorem negInf_eq : Ideal.ofBits .f32 0xFF800000#32 = ⊥ := by
  simp [Ideal.ofBits, Ideal.ieee]

/-- The word `0x3F000000` is one half. -/
theorem half_eq : Ideal.ofBits .f32 0x3F000000#32 = ((1 / 2 : ℝ) : EReal) := by
  simp [Ideal.ofBits, Ideal.ieee, -EReal.coe_mul]; norm_num

/-- The word `0x40000000` is two. -/
theorem two_eq : Ideal.ofBits .f32 0x40000000#32 = ((2 : ℝ) : EReal) := by
  simp [Ideal.ofBits, Ideal.ieee, -EReal.coe_mul]; norm_num

/-- The word `0x3F800000` is one. -/
theorem one_eq : Ideal.ofBits .f32 0x3F800000#32 = 1 := by
  simp [Ideal.ofBits, Ideal.ieee, -EReal.coe_mul]; norm_num

/-- Half of `l` is `l` divided by two, on every extended real. -/
theorem mul_half_eq_div_two (l : EReal) :
    l * Ideal.ofBits .f32 0x3F000000#32 = Ideal.div l (Ideal.ofBits .f32 0x40000000#32) := by
  rw [half_eq, two_eq, Ideal.div_coe (by norm_num : (2 : ℝ) ≠ 0)]

/-! ## One row -/

section Row
variable {n : Nat}

/-- The weight of entry `j`: the exponential of its distance below the row's maximum. -/
def weight (z : Fin n → EReal) (j : Fin n) : EReal :=
  Ideal.exp (z j - foldMax (Ideal.ofBits .f32 0xFF800000#32) z)

/-- The weight times the reciprocal of the weights' sum. -/
def byReciprocal (z : Fin n → EReal) (j : Fin n) : EReal :=
  weight z j * Ideal.div (Ideal.ofBits .f32 0x3F800000#32) (∑ k, weight z k)

/-- The weight divided by the weights' sum, the sum started from the word of zero. -/
def byQuotient (z : Fin n → EReal) (j : Fin n) : EReal :=
  Ideal.div (weight z j) (Ideal.ofBits .f32 0x00000000#32 + ∑ k, weight z k)

/-- The exponential is positive away from −∞. -/
theorem exp_pos_of_ne_bot {y : EReal} (h : y ≠ ⊥) : 0 < Ideal.exp y := by
  induction y using EReal.rec with
  | bot => exact absurd rfl h
  | top => rw [Ideal.exp_top]; exact EReal.zero_lt_top
  | coe r => rw [Ideal.exp_coe]; exact_mod_cast Real.exp_pos r

/-- The maximum of a row of finite entries, folded from −∞, is not `⊤`. -/
theorem foldMax_ne_top (z : Fin n → EReal) (hz : ∀ k, IsFin (z k)) :
    foldMax (Ideal.ofBits .f32 0xFF800000#32) z ≠ ⊤ := by
  refine ne_of_lt ?_
  unfold foldMax
  rw [Finset.fold_max_lt]
  exact ⟨by rw [negInf_eq]; exact bot_lt_top, fun k _ => lt_top_iff_ne_top.mpr (hz k).2⟩

/-- Every weight of a row of finite entries is positive. -/
theorem weight_pos (z : Fin n → EReal) (hz : ∀ k, IsFin (z k)) (k : Fin n) : 0 < weight z k := by
  refine exp_pos_of_ne_bot ?_
  rw [sub_eq_add_neg]
  intro h
  rcases EReal.add_eq_bot_iff.mp h with h | h
  · exact (hz k).1 h
  · exact foldMax_ne_top z hz (EReal.neg_eq_bot_iff.mp h)

/-- So the weights of a nonempty row of finite entries do not sum to zero. -/
theorem sum_weight_ne_zero (z : Fin n → EReal) (hz : ∀ k, IsFin (z k)) (j : Fin n) : (∑ k, weight z k) ≠ 0 :=
  ne_of_gt (lt_of_lt_of_le (weight_pos z hz j)
    (Finset.single_le_sum (fun k _ => (weight_pos z hz k).le) (Finset.mem_univ j)))

/-- THE LAW: on a row of finite entries, the weight times the reciprocal of the sum is the weight divided by the sum. -/
theorem byReciprocal_eq_byQuotient (z : Fin n → EReal) (hz : ∀ k, IsFin (z k)) (j : Fin n) :
    byReciprocal z j = byQuotient z j := by
  have hs := sum_weight_ne_zero z hz j
  unfold byReciprocal byQuotient
  rw [Ideal.ofBits_zero_f32, zero_add, one_eq]
  unfold Ideal.div
  rw [if_neg hs, if_neg hs, one_mul]

end Row

/-! ## The logits of a row of `x` -/

/-- The logit of row `p` of `x` for expert `j`: the row against row `j` of `w`, plus the expert's bias. -/
def logit {a : Nat} (x : (⟨2, ![a, 2048]⟩ : Shape).Idx → EReal) (w : (⟨2, ![64, 2048]⟩ : Shape).Idx → EReal)
    (b : Fin 64 → EReal) (p : Fin a) (j : Fin 64) : EReal :=
  (∑ k : Fin 2048, x (ix2 p k) * w (ix2 j k)) + b j

/-- A logit of finite entries is finite. -/
theorem isFin_logit {a : Nat} (x : (⟨2, ![a, 2048]⟩ : Shape).Idx → EReal) (w : (⟨2, ![64, 2048]⟩ : Shape).Idx → EReal)
    (b : Fin 64 → EReal) (hx : ∀ i, IsFin (x i)) (hw : ∀ i, IsFin (w i)) (hb : ∀ j, IsFin (b j)) (p : Fin a) (j : Fin 64) :
    IsFin (logit x w b p j) :=
  (isFin_sum_mul _ _ (fun k => hx (ix2 p k)) (fun k => hw (ix2 j k))).add (hb j)

/-- A logit depends on `x` through its row only. -/
theorem logit_congr {a a' : Nat} (x : (⟨2, ![a, 2048]⟩ : Shape).Idx → EReal) (x' : (⟨2, ![a', 2048]⟩ : Shape).Idx → EReal)
    (w w' : (⟨2, ![64, 2048]⟩ : Shape).Idx → EReal) (b b' : Fin 64 → EReal) (p : Fin a) (p' : Fin a')
    (hx : ∀ k, x (ix2 p k) = x' (ix2 p' k)) (hw : w = w') (hb : b = b') (j : Fin 64) :
    logit x w b p j = logit x' w' b' p' j := by
  subst hw hb
  unfold logit
  exact congrArg (· + b j) (Finset.sum_congr rfl fun k _ => by rw [hx k])

/-- The router's weight of expert `j` for row `p`, the logits halved, the reciprocal form. -/
def routeHalved {a : Nat} (x : (⟨2, ![a, 2048]⟩ : Shape).Idx → EReal) (w : (⟨2, ![64, 2048]⟩ : Shape).Idx → EReal)
    (b : Fin 64 → EReal) (p : Fin a) (j : Fin 64) : EReal :=
  byReciprocal (fun k => logit x w b p k * Ideal.ofBits .f32 0x3F000000#32) j

/-- The router's weight of expert `j` for row `p`, the logits divided by two, the quotient form. -/
def routeDivided {a : Nat} (x : (⟨2, ![a, 2048]⟩ : Shape).Idx → EReal) (w : (⟨2, ![64, 2048]⟩ : Shape).Idx → EReal)
    (b : Fin 64 → EReal) (p : Fin a) (j : Fin 64) : EReal :=
  byQuotient (fun k => Ideal.div (logit x w b p k) (Ideal.ofBits .f32 0x40000000#32)) j

/-- On finite entries the two forms of the router's weights agree. -/
theorem routeHalved_eq_routeDivided {a : Nat} (x : (⟨2, ![a, 2048]⟩ : Shape).Idx → EReal)
    (w : (⟨2, ![64, 2048]⟩ : Shape).Idx → EReal) (b : Fin 64 → EReal)
    (hx : ∀ i, IsFin (x i)) (hw : ∀ i, IsFin (w i)) (hb : ∀ j, IsFin (b j)) (p : Fin a) (j : Fin 64) :
    routeHalved x w b p j = routeDivided x w b p j := by
  unfold routeHalved routeDivided
  have hz : (fun k => logit x w b p k * Ideal.ofBits .f32 0x3F000000#32)
      = fun k => Ideal.div (logit x w b p k) (Ideal.ofBits .f32 0x40000000#32) :=
    funext fun k => mul_half_eq_div_two _
  rw [← hz]
  refine byReciprocal_eq_byQuotient _ (fun k => ?_) j
  exact (isFin_logit x w b hx hw hb p k).mul (by rw [half_eq]; exact isFin_coe _)

/-- The halved form depends on `x` through its row only. -/
theorem routeHalved_congr {a a' : Nat} (x : (⟨2, ![a, 2048]⟩ : Shape).Idx → EReal) (x' : (⟨2, ![a', 2048]⟩ : Shape).Idx → EReal)
    (w w' : (⟨2, ![64, 2048]⟩ : Shape).Idx → EReal) (b b' : Fin 64 → EReal) (p : Fin a) (p' : Fin a')
    (hx : ∀ k, x (ix2 p k) = x' (ix2 p' k)) (hw : w = w') (hb : b = b') (j : Fin 64) :
    routeHalved x w b p j = routeHalved x' w' b' p' j := by
  unfold routeHalved
  exact congrArg (fun z => byReciprocal z j) (funext fun k => by rw [logit_congr x x' w w' b b' p p' hx hw hb k])

end TemperedSoftmax

end
-- ==== Proof.KernelSide.lean ====
/-
  What the kernel's body stores, read index by index: at (r, j) of a block of 1024 rows it is the reciprocal form
  of the tempered softmax of the halved logits of the block's row r.

  The logits: the matrix unit's product of the block of x with w, contracted over the 2048 columns of both (row r of
  the block against row k of w) into a zero accumulator, plus the one row of biases broadcast down the block.  The
  row's maximum and the weights' sum are lane reductions kept as columns and broadcast back.
-/
import proofs.«148821_g39702677684789_cont_8to1_b_1864_3_alg».proof.Proof.Gen.KernelIdeal.Skeleton
import proofs.«148821_g39702677684789_cont_8to1_b_1864_3_alg».proof.Proof.Softmax
import Idealize.ShloMosaic.Lib.Pipeline.Value
import Idealize.ShloMosaic.Lib.ValueLayout

noncomputable section

namespace Cert.KernelIdeal.Body

open Cert.KernelIdeal Cert.KernelIdeal.Gen
open Idealize.ShloMosaic Idealize.ShloMosaic.ValueIdx RowReduce TemperedSoftmax

/-! ## The softmax of a block of scaled logits -/

/-- A block `z` of scaled logits, its row maxima and row sums taken by lane reductions and kept as columns: the
    stored value at (r, j) is the reciprocal form of the softmax of row r. -/
theorem softmax_block_apply {a b : Nat} (z : FVec Ideal ⟨2, ![a, b]⟩ .f32)
    (hred : (⟨2, ![a, b]⟩ : Shape).Reduces [1] (⟨1, ![a]⟩ : Shape)) (hφ : FKind.Formats .f32)
    (hmax : (0xFF800000#32 : BitVec 32) = FKind.maximumf.neutral .f32 hφ)
    (hadd : (0x00000000#32 : BitVec 32) = FKind.add.neutral .f32 hφ)
    (hsc : (⟨1, ![a]⟩ : Shape).ShapeCasts ⟨2, ![a, 1]⟩) (hbc : (⟨2, ![a, 1]⟩ : Shape).Broadcasts ⟨2, ![a, b]⟩)
    (r : Fin a) (j : Fin b) :
    mulf (exp (subf z (broadcastTo ⟨2, ![a, b]⟩ (shapeCast ⟨2, ![a, 1]⟩
            (multiReduction (F := Ideal) .maximumf [1] ⟨1, ![a]⟩ z 0xFF800000#32 hred hφ hmax) hsc) hbc)))
        (broadcastTo ⟨2, ![a, b]⟩ (divf (broadcast ⟨2, ![a, 1]⟩ (Scalar.ofBits (F := Ideal) .f32 0x3F800000#32))
          (shapeCast ⟨2, ![a, 1]⟩ (multiReduction (F := Ideal) .add [1] ⟨1, ![a]⟩
            (exp (subf z (broadcastTo ⟨2, ![a, b]⟩ (shapeCast ⟨2, ![a, 1]⟩
              (multiReduction (F := Ideal) .maximumf [1] ⟨1, ![a]⟩ z 0xFF800000#32 hred hφ hmax) hsc) hbc)))
            0x00000000#32 hred hφ hadd) hsc)) hbc) (ix2 r j)
      = byReciprocal (fun k => z (ix2 r k)) j := by
  generalize he : (exp (subf z (broadcastTo ⟨2, ![a, b]⟩ (shapeCast ⟨2, ![a, 1]⟩
            (multiReduction (F := Ideal) .maximumf [1] ⟨1, ![a]⟩ z 0xFF800000#32 hred hφ hmax) hsc) hbc))
            : FVec Ideal ⟨2, ![a, b]⟩ .f32) = e
  have hw : ∀ k : Fin b, e (ix2 r k) = weight (fun k => z (ix2 r k)) k := fun k => by
    rw [← he]
    show Ideal.exp (z (ix2 r k) - broadcastTo ⟨2, ![a, b]⟩ (shapeCast ⟨2, ![a, 1]⟩
      (multiReduction (F := Ideal) .maximumf [1] ⟨1, ![a]⟩ z 0xFF800000#32 hred hφ hmax) hsc) hbc (ix2 r k)) = _
    rw [column_broadcast_apply _ hsc hbc r k, multiReduction_max_row z _ hred hφ hmax r]
    rfl
  show e (ix2 r j) * broadcastTo ⟨2, ![a, b]⟩ (divf (broadcast ⟨2, ![a, 1]⟩ (Scalar.ofBits (F := Ideal) .f32 0x3F800000#32))
          (shapeCast ⟨2, ![a, 1]⟩ (multiReduction (F := Ideal) .add [1] ⟨1, ![a]⟩ e 0x00000000#32 hred hφ hadd) hsc)) hbc (ix2 r j) = _
  rw [broadcastTo_column_apply _ hbc r j]
  show e (ix2 r j) * Ideal.div (Ideal.ofBits .f32 0x3F800000#32)
      (shapeCast ⟨2, ![a, 1]⟩ (multiReduction (F := Ideal) .add [1] ⟨1, ![a]⟩ e 0x00000000#32 hred hφ hadd) hsc (ix2 r (0 : Fin 1))) = _
  rw [shapeCast_column_apply _ hsc r 0, multiReduction_add_row e _ hred hφ hadd r, hw j]
  unfold byReciprocal
  exact congrArg (fun s => weight (fun k => z (ix2 r k)) j * Ideal.div (Ideal.ofBits .f32 0x3F800000#32) s)
    (Finset.sum_congr rfl fun k _ => hw k)

/-! ## The block's scaled logits -/

/-- The matrix unit's contraction pairs row `i 0` of the left operand with row `i 1` of the right operand. -/
theorem lhs_row (i : S1024x64.Idx) (q : dot_S1024x2048_S64x2048_S1024x64_1_1_0_0_n_n.contr.Idx) :
    (dot_S1024x2048_S64x2048_S1024x64_1_1_0_0_n_n.lhsIdx i q 0).val = (i 0).val := by
  unfold DotDims.lhsIdx
  rw [dif_neg (show ¬(0 : Fin S1024x2048.rank) ∈ dot_S1024x2048_S64x2048_S1024x64_1_1_0_0_n_n.lhsBatch by decide),
    dif_pos (show (0 : Fin S1024x2048.rank) ∈ dot_S1024x2048_S64x2048_S1024x64_1_1_0_0_n_n.lhsNonContracting by decide)]
  rfl
theorem lhs_col (i : S1024x64.Idx) (q : dot_S1024x2048_S64x2048_S1024x64_1_1_0_0_n_n.contr.Idx) :
    (dot_S1024x2048_S64x2048_S1024x64_1_1_0_0_n_n.lhsIdx i q 1).val = (q ⟨0, by decide⟩).val :=
  dot_S1024x2048_S64x2048_S1024x64_1_1_0_0_n_n.lhsIdx_val_of_single rfl i q
theorem rhs_row (i : S1024x64.Idx) (q : dot_S1024x2048_S64x2048_S1024x64_1_1_0_0_n_n.contr.Idx) :
    (dot_S1024x2048_S64x2048_S1024x64_1_1_0_0_n_n.rhsIdx i q 0).val = (i 1).val := by
  unfold DotDims.rhsIdx
  rw [dif_neg (show ¬(0 : Fin S64x2048.rank) ∈ dot_S1024x2048_S64x2048_S1024x64_1_1_0_0_n_n.rhsBatch by decide),
    dif_pos (show (0 : Fin S64x2048.rank) ∈ dot_S1024x2048_S64x2048_S1024x64_1_1_0_0_n_n.rhsNonContracting by decide)]
  rfl
theorem rhs_col (i : S1024x64.Idx) (q : dot_S1024x2048_S64x2048_S1024x64_1_1_0_0_n_n.contr.Idx) :
    (dot_S1024x2048_S64x2048_S1024x64_1_1_0_0_n_n.rhsIdx i q 1).val = (q ⟨0, by decide⟩).val :=
  dot_S1024x2048_S64x2048_S1024x64_1_1_0_0_n_n.rhsIdx_val_of_single rfl i q

/-- The product of the block with w into a zero accumulator, at (r, k): row r against row k over the 2048 columns. -/
theorem product_apply (x0 : FVec Ideal S1024x2048 .bf16) (x1 : FVec Ideal S64x2048 .bf16) (r : Fin 1024) (k : Fin 64) :
    matmul dot_S1024x2048_S64x2048_S1024x64_1_1_0_0_n_n none x0 x1 (constant S1024x64 .f32 0x00000000#32) (ix2 r k)
      = ∑ q : Fin 2048, x0 (ix2 r q) * x1 (ix2 k q) := by
  simp only [matmul]
  rw [Ideal.matmul_constant_zero_apply,
    ← Equiv.sum_comp (ValueIdx.contrEquiv1 dot_S1024x2048_S64x2048_S1024x64_1_1_0_0_n_n 2048 rfl rfl).symm]
  refine Finset.sum_congr rfl fun q _ => ?_
  have hq := ValueIdx.contrEquiv1_symm_val dot_S1024x2048_S64x2048_S1024x64_1_1_0_0_n_n 2048 rfl rfl q
  have el : dot_S1024x2048_S64x2048_S1024x64_1_1_0_0_n_n.lhsIdx (ix2 r k)
      ((ValueIdx.contrEquiv1 dot_S1024x2048_S64x2048_S1024x64_1_1_0_0_n_n 2048 rfl rfl).symm q) = ix2 r q :=
    funext fun a => Fin.ext (by
      match a with
      | ⟨0, _⟩ => exact lhs_row _ _
      | ⟨1, _⟩ => exact (lhs_col _ _).trans hq)
  have er : dot_S1024x2048_S64x2048_S1024x64_1_1_0_0_n_n.rhsIdx (ix2 r k)
      ((ValueIdx.contrEquiv1 dot_S1024x2048_S64x2048_S1024x64_1_1_0_0_n_n 2048 rfl rfl).symm q) = ix2 k q :=
    funext fun a => Fin.ext (by
      match a with
      | ⟨0, _⟩ => exact rhs_row _ _
      | ⟨1, _⟩ => exact (rhs_col _ _).trans hq)
  rw [el, er]

/-- The block's halved logits at (r, k). -/
theorem scaled_apply (x0 : Vec Ideal S1024x2048 .f32) (x1 : Vec Ideal S64x2048 .f32) (x2 : Vec Ideal S1x64 .f32)
    (hlt : FTy.bits .bf16 < FTy.bits .f32) (hsc : S1x64.ShapeCasts S1x64) (hbc : S1x64.Broadcasts S1024x64)
    (r : Fin 1024) (k : Fin 64) :
    mulf (addf (matmul dot_S1024x2048_S64x2048_S1024x64_1_1_0_0_n_n none (truncf (F := Ideal) .bf16 x0 hlt) (truncf (F := Ideal) .bf16 x1 hlt)
          (constant S1024x64 .f32 0x00000000#32)) (broadcastTo S1024x64 (shapeCast S1x64 x2 hsc) hbc))
        (broadcast S1024x64 (Scalar.ofBits (F := Ideal) .f32 0x3F000000#32)) (ix2 r k)
      = logit x0 x1 (fun j => x2 (ix2 (0 : Fin 1) j)) r k * Ideal.ofBits .f32 0x3F000000#32 := by
  show (matmul dot_S1024x2048_S64x2048_S1024x64_1_1_0_0_n_n none (truncf (F := Ideal) .bf16 x0 hlt) (truncf (F := Ideal) .bf16 x1 hlt)
      (constant S1024x64 .f32 0x00000000#32) (ix2 r k) + broadcastTo S1024x64 (shapeCast S1x64 x2 hsc) hbc (ix2 r k))
        * Ideal.ofBits .f32 0x3F000000#32 = _
  rw [product_apply, shapeCast_self, broadcastTo_1b_ab_apply]
  rfl

/-! ## The stored value -/

/-- What the body stores, at (r, j). -/
theorem payload_apply (x0 : Vec Ideal S1024x2048 .f32) (x1 : Vec Ideal S64x2048 .f32) (x2 : Vec Ideal S1x64 .f32)
    (r : Fin 1024) (j : Fin 64) :
    k0_pay1 x0 x1 x2 (ix2 r j) = routeHalved x0 x1 (fun j' => x2 (ix2 (0 : Fin 1) j')) r j := by
  unfold k0_pay1 routeHalved
  refine (softmax_block_apply _ reduces_S1024x64_S1024 (.inl rfl) rfl rfl shapeCasts_S1024_S1024x1 broadcasts_S1024x1_S1024x64 r j).trans ?_
  exact congrArg (fun z => byReciprocal z j) (funext fun k =>
    scaled_apply x0 x1 x2 bitsLt_bf16_f32 shapeCasts_S1x64_S1x64 broadcasts_S1x64_S1024x64 r k)

end Cert.KernelIdeal.Body

end
-- ==== Proof.Blocks.lean ====
/-
  From blocks to the array.  The output is written block by block: grid point t writes rows 1024·t … 1024·t + 1023,
  all 64 columns, from rows 1024·t … of x (all 2048 columns), the whole of w and the one row of biases.  What point
  t writes is therefore block t of ONE function of the arrays the region finds, the sixteen blocks cover the output,
  and the output array ends holding that function.  The one row of biases the region finds is the reshape of the
  bias argument: entry (0, j) is bias j.
-/
import proofs.«148821_g39702677684789_cont_8to1_b_1864_3_alg».proof.Proof.Gen.KernelIdeal.Value
import proofs.«148821_g39702677684789_cont_8to1_b_1864_3_alg».proof.Proof.KernelSide
import Idealize.ShloMosaic.Lib.Pipeline.Value
import Idealize.ShloMosaic.Lib.StableHlo.Run
import Idealize.ShloMosaic.Lib.Tactic

noncomputable section

namespace Cert.KernelIdeal.Whole

open Cert.KernelIdeal Cert.KernelIdeal.Gen Cert.KernelIdeal.Value
open Idealize.ShloMosaic Idealize.ShloMosaic.TcCoe Idealize.SL.Sem Idealize.ShloMosaic.ValueIdx TemperedSoftmax
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The output array as one function of the arrays the region finds: x, w, and the biases as a [1, 64] row. -/
def G (X : S16384x2048.Idx → EReal) (W : S64x2048.Idx → EReal) (B : S1x64.Idx → EReal) : S16384x64.Idx → EReal :=
  fun i => routeHalved X W (fun j => B (ix2 (0 : Fin 1) j)) (i 0) (i 1)

/-- The printed index maps over the grid: x's block moves down with the output's; w and the biases stay; nothing
    moves sideways; the output's block row is below 16. -/
theorem index_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 15 :=
  (by decide +kernel : ∀ t : Fin grid0.N, _)

/-- Every block row of the output is some point's. -/
theorem index_onto : ∀ q : Fin 16, ∃ t : Fin cfg0.N, win0_3.index t = ![q.val, 0] :=
  (by decide +kernel : ∀ q : Fin 16, ∃ t : Fin grid0.N, win0_3.index t = ![q.val, 0])

/-- What point t writes back is block t of `G` of the arrays the region finds. -/
theorem flushed_eq (c : Dev nD) (t : Fin cfg0.N) :
    (dats m 0 c).flushed 3 t
      = ((cfg0.win 3).blk t).view.read (Elt Ideal) (G (V m c main_arg0) (V m c main_arg1) (V m c main_v0)) := by
  rw [Value.flushed3]
  unfold out0_3
  rw [View.canon_unit_zero zero_offsets]
  simp only [View.ld_unit_zero (S := S1024x2048) zero_offsets, View.ld_unit_zero (S := S64x2048) zero_offsets,
    View.ld_unit_zero (S := S1x64) zero_offsets]
  obtain ⟨e0, e1, e2, e3, e4, e5, e6, e7⟩ := index_facts t
  funext y
  obtain ⟨r, j, rfl⟩ : ∃ (r : Fin 1024) (j : Fin 64), y = ix2 r j := ⟨y 0, y 1, eq_ix2 y⟩
  have hr : r.val < 1024 := r.isLt
  have hp : win0_3.index t (0 : Fin 2) * 1024 + r.val < 16384 := by omega
  have hemb : ((cfg0.win 3).blk t).view.emb (ix2 r j)
      = ix2 (⟨win0_3.index t (0 : Fin 2) * 1024 + r.val, hp⟩ : Fin 16384) j := by
    funext a; apply Fin.ext
    match a with
    | ⟨0, _⟩ => show win0_3.index t (0 : Fin 2) * 1024 + 1 * r.val = win0_3.index t (0 : Fin 2) * 1024 + r.val; omega
    | ⟨1, _⟩ => show win0_3.index t (1 : Fin 2) * 64 + 1 * j.val = j.val; omega
  show k0_pay1 (iblk m c 0 t) (iblk m c 1 t) (iblk m c 2 t) (ix2 r j)
    = G (V m c main_arg0) (V m c main_arg1) (V m c main_v0) (((cfg0.win 3).blk t).view.emb (ix2 r j))
  rw [hemb]
  refine (Body.payload_apply (iblk m c 0 t) (iblk m c 1 t) (iblk m c 2 t) r j).trans ?_
  show routeHalved (a := 1024) _ _ _ r j = routeHalved (a := 16384) _ _ _ ⟨win0_3.index t (0 : Fin 2) * 1024 + r.val, hp⟩ j
  refine routeHalved_congr (a := 1024) (a' := 16384) _ _ _ _ _ _ r _ (fun k => ?_) (funext fun i => ?_) (funext fun j' => ?_) j
  · have hx : ((cfg0.win 0).blk t).view.emb (ix2 r k)
        = ix2 (⟨win0_3.index t (0 : Fin 2) * 1024 + r.val, hp⟩ : Fin 16384) k := by
      funext a; apply Fin.ext
      match a with
      | ⟨0, _⟩ => show win0_0.index t (0 : Fin 2) * 1024 + 1 * r.val = win0_3.index t (0 : Fin 2) * 1024 + r.val; omega
      | ⟨1, _⟩ => show win0_0.index t (1 : Fin 2) * 2048 + 1 * k.val = k.val; omega
    show V m c main_arg0 (((cfg0.win 0).blk t).view.emb (ix2 r k)) = _
    rw [hx]
  · have hw : ((cfg0.win 1).blk t).view.emb i = i := by
      funext a; apply Fin.ext
      match a with
      | ⟨0, _⟩ => show win0_1.index t (0 : Fin 2) * 64 + 1 * (i 0).val = (i 0).val; omega
      | ⟨1, _⟩ => show win0_1.index t (1 : Fin 2) * 2048 + 1 * (i 1).val = (i 1).val; omega
    show V m c main_arg1 (((cfg0.win 1).blk t).view.emb i) = _
    rw [hw]
  · have hb : ((cfg0.win 2).blk t).view.emb (ix2 (0 : Fin 1) j') = ix2 (0 : Fin 1) j' := by
      funext a; apply Fin.ext
      match a with
      | ⟨0, _⟩ => show win0_2.index t (0 : Fin 2) * 1 + 1 * 0 = 0; omega
      | ⟨1, _⟩ => show win0_2.index t (1 : Fin 2) * 64 + 1 * j'.val = j'.val; omega
    show V m c main_v0 (((cfg0.win 2).blk t).view.emb (ix2 (0 : Fin 1) j')) = _
    rw [hb]

/-- An index of the output is in point t's block iff each coordinate is in the block's range on its axis. -/
theorem mem_block (t : Fin cfg0.N) (i : S16384x64.Idx) :
    i ∈ ((cfg0.win 3).blk t).view.set ↔ ∀ a : Fin 2, win0_3.index t a * S1024x64.size a ≤ (i a).val
      ∧ (i a).val < win0_3.index t a * S1024x64.size a + S1024x64.size a := by
  show i ∈ ((View.whole main_v1).slice (win0_3.rect t)).set ↔ _
  rw [View.set_slice_whole, Rect.mem_set_unit]
  exact Iff.rfl

/-- The sixteen blocks cover the output: row `p` is in the block of point `p / 1024`. -/
theorem covered (i : S16384x64.Idx) :
    ∃ t : Fin cfg0.N, (cfg0.win 3).flush t = true ∧ i ∈ ((cfg0.win 3).blk t).view.set := by
  have hi0 : (i 0).val < 16384 := (i 0).isLt
  have hi1 : (i 1).val < 64 := (i 1).isLt
  obtain ⟨t, ht⟩ := index_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 64 ≤ (i 1).val ∧ (i 1).val < win0_3.index t (1 : Fin 2) * 64 + 64; omega

/-- The output array after the run is `G` of the arrays the region finds. -/
theorem final (c : Dev nD) :
    (dats m 0 c).arrAt 3 cfg0.N = G (V m c main_arg0) (V m c main_arg1) (V m c main_v0) :=
  (dats m 0 c).arrAt_eq_of_cover 3 (G (V m c main_arg0) (V m c main_arg1) (V m c main_v0))
    (fun t _ => flushed_eq m c t) covered

/-- The row of biases the region finds: entry (0, j) is bias j of the argument. -/
theorem bias_row (c : Dev nD) (j : Fin 64) :
    (V m c main_v0 : S1x64.Idx → EReal) (ix2 (0 : Fin 1) j)
      = (m ((c : Thread nD τ).loc main_arg2) : S64.Idx → EReal) (ix1 j) := by
  have e : (V m c main_v0 : S1x64.Idx → EReal)
      = shapeCast S1x64 (m ((c : Thread nD τ).loc main_arg2) : S64.Idx → EReal) shapeCasts_S64_S1x64 := by
    dsimp only [Gen.V, Gen.hostOps0]; after_results; rfl
  rw [e]
  exact shapeCast_a_1a_apply _ _ 0 j

/-- The output array after the run, as a function of the argument arrays. -/
def result (x : S16384x2048.Idx → EReal) (w : S64x2048.Idx → EReal) (b : S64.Idx → EReal) : S16384x64.Idx → EReal :=
  fun i => routeHalved x w (fun j => b (ix1 j)) (i 0) (i 1)

theorem final_args (c : Dev nD) :
    (dats m 0 c).arrAt 3 cfg0.N = result (m ((c : Thread nD τ).loc main_arg0)) (m ((c : Thread nD τ).loc main_arg1))
      (m ((c : Thread nD τ).loc main_arg2)) := by
  rw [final, V_main_arg0, V_main_arg1]
  unfold G result
  funext i
  exact congrArg (fun b => routeHalved _ _ b (i 0) (i 1)) (funext fun j => bias_row m c j)

/-- The kernel's run, read: the result array at `result` of the arguments, the arguments unchanged. -/
theorem run : θ_run defs (onTc (τ := τ) (main (F := Ideal))) ⟨m, fun _ => 0, ρ⟩ fun r => ∀ c : Dev nD,
      r.2.mem ((c : Thread nD τ).loc main_v1) = result (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_args m c), (h c).2⟩) (Value.run_blocks m ρ)

end Cert.KernelIdeal.Whole

end
-- ==== Proof.LibHostRow.lean ====
/-
  A host reduction of a two-dimensional array over its last axis, read row by row on the extended reals.

  The host's maximum over the last axis of an [a, b] array, at row `p`, is the fold of `max` over the row's entries
  from the initial value — the two-dimensional companion of the row readings of a kernel's reductions.
-/
import Idealize.ShloMosaic.PureOps.Ideal.Laws
import Idealize.ShloMosaic.Lib.Pipeline.Value
import Idealize.ShloMosaic.Lib.ValueIdx
import proofs.«148821_g39702677684789_cont_8to1_b_1864_3_alg».proof.Proof.LibRowReduce

noncomputable section

namespace HostRow

open Idealize.ShloMosaic Idealize.ShloMosaic.ValueIdx RowReduce

/-- The host's maximum over the last axis of an [a, b] array, at row `p`: the fold of `max` over the row's
    entries from the initial value. -/
theorem hostReduce_max_row2 {a b : Nat} {φ : FTy} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (p : Fin a) :
    Host.reduce FloatOps.maximumf x init h' hu (ix1 p)
      = foldMax (init (Shape.Idx.first hu)) fun k : Fin b => x (ix2 p k) := by
  refine (Host.reduce_eq_fold_single FloatOps.maximumf x init h' h hu (ix1 p)).trans ?_
  have hf : (x ∘ h.lift (ix1 p)) = fun k : Fin b => x (ix2 p k) := funext fun k => congrArg x (lift_last2 h p k)
  unfold foldMax
  exact congrArg (fun f => Finset.fold max (init (Shape.Idx.first hu)) f (Finset.univ : Finset (Fin b))) hf

end HostRow

end
-- ==== Proof.RefSide.lean ====
/-
  The reference's result, read index by index: at (p, j) it is the quotient form of the tempered softmax of the
  logits of row p divided by two.

  The logits: row p of x against row k of w (the reference multiplies by the transpose of w, which reads w back at
  (k, q)), plus the bias of expert k.  The row's maximum is the host's reduction from −∞, then once more `max` with
  −∞, which changes nothing.  The weights' sum is the host's sum from the word of zero.
-/
import proofs.«148821_g39702677684789_cont_8to1_b_1864_3_alg».proof.Proof.Gen.ReferenceIdeal.Read
import proofs.«148821_g39702677684789_cont_8to1_b_1864_3_alg».proof.Proof.Softmax
import proofs.«148821_g39702677684789_cont_8to1_b_1864_3_alg».proof.Proof.LibHostRow

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx RowReduce TemperedSoftmax

variable (x0 : (⟨S16384x2048, .f32⟩ : BufTy).Contents (Elt Ideal)) (x1 : (⟨S64x2048, .f32⟩ : BufTy).Contents (Elt Ideal))
  (x2 : (⟨S64, .f32⟩ : BufTy).Contents (Elt Ideal))

/-- The reference's result array as one function of the argument arrays. -/
def G (x0 : S16384x2048.Idx → EReal) (x1 : S64x2048.Idx → EReal) (x2 : S64.Idx → EReal) : S16384x64.Idx → EReal :=
  fun i => routeDivided x0 x1 (fun j => x2 (ix1 j)) (i 0) (i 1)

/-- The scaled logit at (p, k). -/
theorem scaled_apply (p : Fin 16384) (k : Fin 64) :
    val_main_v6 (F := Ideal) x0 x1 x2 (ix2 p k)
      = Ideal.div (logit x0 x1 (fun j => x2 (ix1 j)) p k) (Ideal.ofBits .f32 0x40000000#32) := by
  have el : ∀ q : Fin 2048, lidx_main_v1 (ix2 p k) q = ix2 p q := fun q =>
    funext fun a => Fin.ext (by match a with | ⟨0, _⟩ => rfl | ⟨1, _⟩ => rfl)
  have er : ∀ q : Fin 2048, idx_main_v0 (ridx_main_v1 (ix2 p k) q) = ix2 k q := fun q =>
    funext fun a => Fin.ext (by match a with | ⟨0, _⟩ => rfl | ⟨1, _⟩ => rfl)
  have eb : idx_main_v2 (idx_main_v3 (ix2 p k)) = ix1 k :=
    funext fun a => Fin.ext (by match a with | ⟨0, _⟩ => rfl)
  rw [val_main_v6_apply, val_main_v4_apply, val_main_v1_apply, val_main_v3_apply, val_main_v2_apply, val_main_v5_apply,
    val_main_cst_apply, eb]
  simp only [val_main_v0_apply, el, er]
  rfl

/-- The row's maximum, as the reference takes it, at row p. -/
theorem rowMax_apply (p : Fin 16384) :
    val_main_v9 (F := Ideal) x0 x1 x2 (ix1 p)
      = foldMax (Ideal.ofBits .f32 0xFF800000#32) fun k : Fin 64 => val_main_v6 (F := Ideal) x0 x1 x2 (ix2 p k) := by
  rw [val_main_v9_apply]
  unfold val_main_v7
  generalize val_main_v6 (F := Ideal) x0 x1 x2 = y
  rw [HostRow.hostReduce_max_row2 y _ reducesTo_S16384x64_S16384_d1 (by decide) h_S_ p]
  exact max_negInf _

/-- The weight at (p, k). -/
theorem weight_apply (p : Fin 16384) (k : Fin 64) :
    val_main_v13 (F := Ideal) x0 x1 x2 (ix2 p k)
      = weight (fun k' => Ideal.div (logit x0 x1 (fun j => x2 (ix1 j)) p k') (Ideal.ofBits .f32 0x40000000#32)) k := by
  have e1 : idx_main_v10 (idx_main_v11 (ix2 p k)) = ix1 p :=
    funext fun a => Fin.ext (by match a with | ⟨0, _⟩ => rfl)
  rw [val_main_v13_apply, val_main_v12_apply, val_main_v11_apply, val_main_v10_apply, e1, rowMax_apply]
  simp only [scaled_apply]
  rfl

/-- The reference's result is `G` of the argument arrays. -/
theorem result_eq : val_main_v17 (F := Ideal) x0 x1 x2 = G x0 x1 x2 := by
  funext i
  obtain ⟨p, j, rfl⟩ : ∃ (p : Fin 16384) (j : Fin 64), i = ix2 p j := ⟨i 0, i 1, eq_ix2 i⟩
  have e1 : idx_main_v15 (idx_main_v16 (ix2 p j)) = ix1 p :=
    funext fun a => Fin.ext (by match a with | ⟨0, _⟩ => rfl)
  have e2 : ∀ k : Fin 64, idx_main_v14 (ix1 p) k = ix2 p k := fun k =>
    funext fun a => Fin.ext (by match a with | ⟨0, _⟩ => rfl | ⟨1, _⟩ => rfl)
  rw [val_main_v17_apply, val_main_v16_apply, val_main_v15_apply, e1, val_main_v14_apply, val_main_cst_2_apply]
  simp only [e2, weight_apply]
  rfl

end Cert.ReferenceIdeal.RefValue

end
-- ==== Proof.Finite.lean ====
/-
  The precondition, read back: every entry of the three float arguments is a real number.

  The printed predicate is the conjunction of three `all`s, one per argument, of `|entry| < +∞`.  Each `all` that
  came out true had a true at every index, and `|v| < +∞` on the extended reals says `v` is neither infinity.
-/
import proofs.«148821_g39702677684789_cont_8to1_b_1864_3_alg».proof.Pre_finite_inputs
import proofs.«148821_g39702677684789_cont_8to1_b_1864_3_alg».proof.Proof.LibERealSums
import Idealize.ShloMosaic.PureOps.Ideal.Laws
import Idealize.ShloMosaic.Lib.ReduceAll
import Idealize.ShloMosaic.Lib.ValueIdx

noncomputable section

namespace Cert.FiniteInputs

open Idealize.ShloMosaic Cert.LibERealSums Cert.Pre_finite_inputs

/-- An extended real whose absolute value is below the word of +∞ is finite. -/
theorem isFin_of_abs_lt (v : EReal)
    (h : Ideal.cmp .olt (max v (-v)) (Ideal.ofBits .f32 0x7F800000#32) = 1#1) : IsFin v := by
  have hinf : Ideal.ofBits .f32 0x7F800000#32 = ⊤ := by simp [Ideal.ofBits, Ideal.ieee]
  rw [hinf] at h
  induction v using EReal.rec with
  | bot => simp [Ideal.cmp] at h
  | top => simp [Ideal.cmp] at h
  | coe r => exact isFin_coe r

instance : Subsingleton S_.Idx := ⟨fun a b => funext fun d => d.elim0⟩

/-- Where the printed predicate holds, every entry of each argument is finite. -/
theorem finite_of_pre [Facts] (a0 : FVec Ideal S16384x2048 .f32) (a1 : FVec Ideal S64x2048 .f32) (a2 : FVec Ideal S64 .f32)
    (h : fn (F := Ideal) a0 a1 a2 = fun _ => 1#1) :
    (∀ i, IsFin (a0 i)) ∧ (∀ i, IsFin (a1 i)) ∧ (∀ i, IsFin (a2 i)) := by
  have h0 := congrFun h ValueIdx.ix0
  dsimp only [fn] at h0
  obtain ⟨h01, h2⟩ := IntOp.andi_eq_one.1 h0
  obtain ⟨h0', h1⟩ := IntOp.andi_eq_one.1 h01
  exact ⟨fun i => isFin_of_abs_lt _ (Host.reduce_andi_all _ _ _ _ _ h0' i),
    fun i => isFin_of_abs_lt _ (Host.reduce_andi_all _ _ _ _ _ h1 i),
    fun i => isFin_of_abs_lt _ (Host.reduce_andi_all _ _ _ _ _ h2 i)⟩

end Cert.FiniteInputs

end
-- ==== Proof.lean ====
/-
  The router's weights: for each of 16384 tokens the tempered softmax, at temperature two, over 64 experts of
  the logits  x · wᵀ + b.

  The kernel computes them block by block, 1024 tokens at a time: the logits by the matrix unit, halved, their row
  maximum subtracted, exponentiated, and each weight multiplied by the reciprocal of its row's sum.  The reference
  divides the logits by two and each weight by its row's sum.  On the extended reals halving is dividing by two
  everywhere; a weight times the reciprocal of the sum is the weight divided by the sum as soon as the sum is not
  zero, and the sum is positive when the entries of x, w and b are finite, which is the claim's precondition.

  The kernel's frames are the generated ones; the reference's frame is its generated run with the result
  dropped; no operation was rewritten by the idealization, so there is nothing to preserve.
-/
import proofs.«148821_g39702677684789_cont_8to1_b_1864_3_alg».proof.Defs
import proofs.«148821_g39702677684789_cont_8to1_b_1864_3_alg».proof.Proof.Gen.Kernel
import proofs.«148821_g39702677684789_cont_8to1_b_1864_3_alg».proof.Proof.Gen.Kernel.Skeleton
import proofs.«148821_g39702677684789_cont_8to1_b_1864_3_alg».proof.Proof.Gen.Kernel.Launch
import proofs.«148821_g39702677684789_cont_8to1_b_1864_3_alg».proof.Proof.Gen.Kernel.Points
import proofs.«148821_g39702677684789_cont_8to1_b_1864_3_alg».proof.Proof.Gen.Kernel.Frame
import proofs.«148821_g39702677684789_cont_8to1_b_1864_3_alg».proof.Proof.Gen.KernelIdeal
import proofs.«148821_g39702677684789_cont_8to1_b_1864_3_alg».proof.Proof.Gen.KernelIdeal.Skeleton
import proofs.«148821_g39702677684789_cont_8to1_b_1864_3_alg».proof.Proof.Gen.KernelIdeal.Launch
import proofs.«148821_g39702677684789_cont_8to1_b_1864_3_alg».proof.Proof.Gen.KernelIdeal.Points
import proofs.«148821_g39702677684789_cont_8to1_b_1864_3_alg».proof.Proof.Gen.KernelIdeal.Frame
import proofs.«148821_g39702677684789_cont_8to1_b_1864_3_alg».proof.Proof.Gen.ReferenceIdeal
import proofs.«148821_g39702677684789_cont_8to1_b_1864_3_alg».proof.Proof.Gen.Pre_finite_inputs
import proofs.«148821_g39702677684789_cont_8to1_b_1864_3_alg».proof.Proof.Gen.KernelIdeal.Value
import proofs.«148821_g39702677684789_cont_8to1_b_1864_3_alg».proof.Proof.Gen.ReferenceIdeal.Run
import proofs.«148821_g39702677684789_cont_8to1_b_1864_3_alg».proof.Proof.Gen.ReferenceIdeal.Read
import proofs.«148821_g39702677684789_cont_8to1_b_1864_3_alg».proof.Proof.Blocks
import proofs.«148821_g39702677684789_cont_8to1_b_1864_3_alg».proof.Proof.RefSide
import proofs.«148821_g39702677684789_cont_8to1_b_1864_3_alg».proof.Proof.Finite
import Idealize.ShloMosaic.Adequacy
import Idealize.ShloMosaic.Init

noncomputable section

namespace Cert.Proof

open Idealize.ShloMosaic Idealize.SL.Sem Idealize.ShloMosaic.TcCoe

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories that agree on x, w and b, both programs end with the same array of weights: the kernel's in the
    reciprocal form over halved logits, the reference's in the quotient form over logits divided by two, equal on
    finite entries. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Whole.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq,
    (hagree c).1, (hagree c).2.1, (hagree c).2.2]
  obtain ⟨hx, hw, hb⟩ := Cert.FiniteInputs.finite_of_pre _ _ _ (hpre c)
  funext i
  exact (TemperedSoftmax.routeHalved_eq_routeDivided _ _ _ hx hw (fun j => hb _) (i 0) (i 1)).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
